-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg6 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S1600000 32) (main_arg2 : IVec S1600000 32) (main_arg3 : FVec F S128x64 .f32) (main_arg4 : FVec F S64 .f32) (main_arg5 : FVec F S64x64 .f32) (main_arg6 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_v13 main_v16
-- ==== Kernel.lean ====
abbrev S100000x128 : Shape := ⟨2, ![100000, 128]⟩
abbrev S1600000 : Shape := ⟨1, ![1600000]⟩
abbrev S128x64 : Shape := ⟨2, ![128, 64]⟩
abbrev S64 : Shape := ⟨1, ![64]⟩
abbrev S64x64 : Shape := ⟨2, ![64, 64]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S100000x64 : Shape := ⟨2, ![100000, 64]⟩
abbrev S5000x128 : Shape := ⟨2, ![5000, 128]⟩
abbrev S5000x1 : Shape := ⟨2, ![5000, 1]⟩
abbrev S5000x64 : Shape := ⟨2, ![5000, 64]⟩
abbrev S1700000x64 : Shape := ⟨2, ![1700000, 64]⟩
abbrev S1x64 : Shape := ⟨2, ![1, 64]⟩

abbrev nBuf : Space → Nat
  | .hbm => 59
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S100000, .i32⟩
  | .hbm, ⟨8, _⟩ => ⟨S1700000, .i32⟩
  | .hbm, ⟨9, _⟩ => ⟨S1700000, .i32⟩
  | .hbm, ⟨10, _⟩ => ⟨S_, .f32⟩
  | .hbm, ⟨11, _⟩ => ⟨S1700000, .f32⟩
  | .hbm, ⟨12, _⟩ => ⟨S_, .f32⟩
  | .hbm, ⟨13, _⟩ => ⟨S100000, .f32⟩
  | .hbm, ⟨14, _⟩ => ⟨S1700000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S100000, .f32⟩
  | .hbm, ⟨21, _⟩ => ⟨S100000, .f32⟩
  | .hbm, ⟨22, _⟩ => ⟨S100000x1, .f32⟩
  | .hbm, ⟨23, _⟩ => ⟨S100000x64, .bf16⟩
  | .hbm, ⟨24, _⟩ => ⟨S_, .i32⟩
  | .hbm, ⟨25, _⟩ => ⟨S1700000, .i32⟩
  | .hbm, ⟨26, _⟩ => ⟨S1700000, .i1⟩
  | .hbm, ⟨27, _⟩ => ⟨S_, .i32⟩
  | .hbm, ⟨28, _⟩ => ⟨S1700000, .i32⟩
  | .hbm, ⟨29, _⟩ => ⟨S1700000, .i32⟩
  | .hbm, ⟨30, _⟩ => ⟨S1700000, .i32⟩
  | .hbm, ⟨31, _⟩ => ⟨S1700000x1, .i32⟩
  | .hbm, ⟨32, _⟩ => ⟨S1700000x64, .bf16⟩
  | .hbm, ⟨33, _⟩ => ⟨S1700000x64, .f32⟩
  | .hbm, ⟨34, _⟩ => ⟨S_, .f32⟩
  | .hbm, ⟨35, _⟩ => ⟨S100000x64, .f32⟩
  | .hbm, ⟨36, _⟩ => ⟨S1700000x1, .i32⟩
  | .hbm, ⟨37, _⟩ => ⟨S100000x64, .f32⟩
  | .hbm, ⟨38, _⟩ => ⟨S100000x1, .f32⟩
  | .hbm, ⟨39, _⟩ => ⟨S100000x1, .f32⟩
  | .hbm, ⟨40, _⟩ => ⟨S1x64, .f32⟩
  | .hbm, ⟨41, _⟩ => ⟨S100000x64, .bf16⟩
  | .hbm, ⟨42, _⟩ => ⟨S_, .i32⟩
  | .hbm, ⟨43, _⟩ => ⟨S1700000, .i32⟩
  | .hbm, ⟨44, _⟩ => ⟨S1700000, .i1⟩
  | .hbm, ⟨45, _⟩ => ⟨S_, .i32⟩
  | .hbm, ⟨46, _⟩ => ⟨S1700000, .i32⟩
  | .hbm, ⟨47, _⟩ => ⟨S1700000, .i32⟩
  | .hbm, ⟨48, _⟩ => ⟨S1700000, .i32⟩
  | .hbm, ⟨49, _⟩ => ⟨S1700000x1, .i32⟩
  | .hbm, ⟨50, _⟩ => ⟨S1700000x64, .bf16⟩
  | .hbm, ⟨51, _⟩ => ⟨S1700000x64, .f32⟩
  | .hbm, ⟨52, _⟩ => ⟨S_, .f32⟩
  | .hbm, ⟨53, _⟩ => ⟨S100000x64, .f32⟩
  | .hbm, ⟨54, _⟩ => ⟨S1700000x1, .i32⟩
  | .hbm, ⟨55, _⟩ => ⟨S100000x64, .f32⟩
  | .hbm, ⟨56, _⟩ => ⟨S100000x1, .f32⟩
  | .hbm, ⟨57, _⟩ => ⟨S1x64, .f32⟩
  | .hbm, ⟨58, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x1, .f32⟩
  | .local _ .vmem, ⟨4, _⟩ => ⟨S5000x1, .f32⟩
  | .local _ .vmem, ⟨5, _⟩ => ⟨S5000x64, .bf16⟩
  | .local _ .vmem, ⟨6, _⟩ => ⟨S5000x64, .bf16⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S5000x1, .f32⟩
  | .local _ .vmem, ⟨13, _⟩ => ⟨S5000x1, .f32⟩
  | .local _ .vmem, ⟨14, _⟩ => ⟨S64x64, .f32⟩
  | .local _ .vmem, ⟨15, _⟩ => ⟨S5000x64, .bf16⟩
  | .local _ .vmem, ⟨16, _⟩ => ⟨S5000x64, .bf16⟩
  | .local _ .vmem, ⟨17, _⟩ => ⟨S5000x64, .f32⟩
  | .local _ .vmem, ⟨18, _⟩ => ⟨S5000x64, .f32⟩
  | .local _ .vmem, ⟨19, _⟩ => ⟨S5000x1, .f32⟩
  | .local _ .vmem, ⟨20, _⟩ => ⟨S5000x1, .f32⟩
  | .local _ .vmem, ⟨21, _⟩ => ⟨S1x64, .f32⟩
  | .local _ .vmem, ⟨22, _⟩ => ⟨S5000x64, .f32⟩
  | .local _ .vmem, ⟨23, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c : Ref sig .tc := ⟨.hbm, 24, rfl⟩
abbrev main_v14 : Ref sig .tc := ⟨.hbm, 25, rfl⟩
abbrev main_v15 : Ref sig .tc := ⟨.hbm, 26, rfl⟩
abbrev main_c_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_4 : Ref sig .tc := ⟨.hbm, 42, rfl⟩
abbrev main_v29 : Ref sig .tc := ⟨.hbm, 43, rfl⟩
abbrev main_v30 : Ref sig .tc := ⟨.hbm, 44, rfl⟩
abbrev main_c_5 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_6 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  packedbf16_S5000x64_S5000x64_0_0 : (Rect.unit (s := S5000x64) ![0, 0] S5000x64.size inb_S5000x64_S5000x64_0_0).PackedRows (EltTy.packing .bf16)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  scatter_S100000_S1700000x1_S1700000_n_0_0_1_wf : ScatterDims.WF S100000 S1700000x1 S1700000 [] [0] [0] 1
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .bf16 = 32 ∨ (Rect.block (s := S100000x64) S5000x64.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x1.size a ≤ S100000x1.size a
  hwx1_3 : ∀ i : grid1.Coords, EltTy.bits .f32 = 32 ∨ (Rect.block (s := S100000x1) S5000x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .bf16 = 32 ∨ (Rect.block (s := S100000x64) S5000x64.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .f32 = 32 ∨ (Rect.block (s := S100000x64) S5000x64.size (cc2_transform_3 i) (hinb2_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v24) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S5000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v39) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v40) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v41) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v42) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x64 : Shape := ⟨2, ![128, 64]⟩
abbrev S64 : Shape := ⟨1, ![64]⟩
abbrev S64x64 : Shape := ⟨2, ![64, 64]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S100000x1 : Shape := ⟨2, ![100000, 1]⟩
abbrev S1700000x64 : Shape := ⟨2, ![1700000, 64]⟩
abbrev S1x64 : Shape := ⟨2, ![1, 64]⟩

abbrev nBuf : Space → Nat
  | .hbm => 71
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S100000, .i32⟩
  | .hbm, ⟨8, _⟩ => ⟨S1700000, .i32⟩
  | .hbm, ⟨9, _⟩ => ⟨S1700000, .i32⟩
  | .hbm, ⟨10, _⟩ => ⟨S_, .f32⟩
  | .hbm, ⟨11, _⟩ => ⟨S1700000, .f32⟩
  | .hbm, ⟨12, _⟩ => ⟨S_, .f32⟩
  | .hbm, ⟨13, _⟩ => ⟨S100000, .f32⟩
  | .hbm, ⟨14, _⟩ => ⟨S1700000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S100000, .f32⟩
  | .hbm, ⟨21, _⟩ => ⟨S100000, .f32⟩
  | .hbm, ⟨22, _⟩ => ⟨S100000x64, .f32⟩
  | .hbm, ⟨23, _⟩ => ⟨S100000x1, .f32⟩
  | .hbm, ⟨24, _⟩ => ⟨S100000x64, .f32⟩
  | .hbm, ⟨25, _⟩ => ⟨S100000x64, .f32⟩
  | .hbm, ⟨26, _⟩ => ⟨S_, .i32⟩
  | .hbm, ⟨27, _⟩ => ⟨S1700000, .i32⟩
  | .hbm, ⟨28, _⟩ => ⟨S1700000, .i1⟩
  | .hbm, ⟨29, _⟩ => ⟨S_, .i32⟩
  | .hbm, ⟨30, _⟩ => ⟨S1700000, .i32⟩
  | .hbm, ⟨31, _⟩ => ⟨S1700000, .i32⟩
  | .hbm, ⟨32, _⟩ => ⟨S1700000, .i32⟩
  | .hbm, ⟨33, _⟩ => ⟨S1700000x1, .i32⟩
  | .hbm, ⟨34, _⟩ => ⟨S1700000x64, .f32⟩
  | .hbm, ⟨35, _⟩ => ⟨S_, .f32⟩
  | .hbm, ⟨36, _⟩ => ⟨S100000x64, .f32⟩
  | .hbm, ⟨37, _⟩ => ⟨S1700000x1, .i32⟩
  | .hbm, ⟨38, _⟩ => ⟨S100000x64, .f32⟩
  | .hbm, ⟨39, _⟩ => ⟨S100000x1, .f32⟩
  | .hbm, ⟨40, _⟩ => ⟨S100000x64, .f32⟩
  | .hbm, ⟨41, _⟩ => ⟨S100000x64, .f32⟩
  | .hbm, ⟨42, _⟩ => ⟨S1x64, .f32⟩
  | .hbm, ⟨43, _⟩ => ⟨S100000x64, .f32⟩
  | .hbm, ⟨44, _⟩ => ⟨S100000x64, .f32⟩
  | .hbm, ⟨45, _⟩ => ⟨S_, .f32⟩
  | .hbm, ⟨46, _⟩ => ⟨S100000x64, .f32⟩
  | .hbm, ⟨47, _⟩ => ⟨S100000x64, .f32⟩
  | .hbm, ⟨48, _⟩ => ⟨S100000x64, .f32⟩
  | .hbm, ⟨49, _⟩ => ⟨S100000x1, .f32⟩
  | .hbm, ⟨50, _⟩ => ⟨S100000x64, .f32⟩
  | .hbm, ⟨51, _⟩ => ⟨S100000x64, .f32⟩
  | .hbm, ⟨52, _⟩ => ⟨S_, .i32⟩
  | .hbm, ⟨53, _⟩ => ⟨S1700000, .i32⟩
  | .hbm, ⟨54, _⟩ => ⟨S1700000, .i1⟩
  | .hbm, ⟨55, _⟩ => ⟨S_, .i32⟩
  | .hbm, ⟨56, _⟩ => ⟨S1700000, .i32⟩
  | .hbm, ⟨57, _⟩ => ⟨S1700000, .i32⟩
  | .hbm, ⟨58, _⟩ => ⟨S1700000, .i32⟩
  | .hbm, ⟨59, _⟩ => ⟨S1700000x1, .i32⟩
  | .hbm, ⟨60, _⟩ => ⟨S1700000x64, .f32⟩
  | .hbm, ⟨61, _⟩ => ⟨S_, .f32⟩
  | .hbm, ⟨62, _⟩ => ⟨S100000x64, .f32⟩
  | .hbm, ⟨63, _⟩ => ⟨S1700000x1, .i32⟩
  | .hbm, ⟨64, _⟩ => ⟨S100000x64, .f32⟩
  | .hbm, ⟨65, _⟩ => ⟨S100000x1, .f32⟩
  | .hbm, ⟨66, _⟩ => ⟨S100000x64, .f32⟩
  | .hbm, ⟨67, _⟩ => ⟨S100000x64, .f32⟩
  | .hbm, ⟨68, _⟩ => ⟨S1x64, .f32⟩
  | .hbm, ⟨69, _⟩ => ⟨S100000x64, .f32⟩
  | .hbm, ⟨70, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_call0_cst : Ref sig .tc := ⟨.hbm, 45, rfl⟩
abbrev main_call0_v0 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_c_4 : Ref sig .tc := ⟨.hbm, 52, rfl⟩
abbrev main_v37 : Ref sig .tc := ⟨.hbm, 53, rfl⟩
abbrev main_v38 : Ref sig .tc := ⟨.hbm, 54, rfl⟩
abbrev main_c_5 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_6 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩

abbrev nD : Nat := 1
abbrev τ : Topo := Topo.v7x

variable {F : FTy → Type} [FloatOps F]

class Facts₀ : Prop where
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KernelRun.lean ====
/-
  The idealized kernel's run, with every array after the run named.

  @main is three pipelined regions among three stretches of host operations.  The contents of the core's buffers at each
  of the six boundaries are a fold from the launch memory: a host stretch applies its operations, a region replaces each
  of its output arrays by what its grid points wrote back and leaves every other buffer as it found it.  The run below
  says that every weakly fair execution terminates and that every buffer that outlives the regions ends holding the last
  boundary's contents.  The result array and the seven argument arrays are among those buffers.
-/
import proofs.«112946_j24773371363585_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, and every buffer that is not a region's staging
    buffer ends at the contents of the last boundary of the fold. -/
theorem run_boundary : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- The same run read at the result array and at the seven arguments: the result holds what region 2's write-backs
    leave in its output array, and no host operation and no region writes an argument. -/
theorem run_result : θ_run defs (onTc (τ := τ) (main (F := F))) ⟨m, fun _ => 0, ρ⟩ (fun r => ∀ c : Dev nD,
      r.2.mem ((c.tc : Thread nD τ).loc main_v42) = (dat2 (V5 m ρ) c).arrAt 3 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
      ⟨(h c _ (mem_uc main_v42 (by decide))).trans (W6_arr m ρ c 3),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c)⟩)
    (run_boundary m ρ)

end Cert.KernelIdeal.RunValue

end
-- ==== Proof.LibColumnLayout.lean ====
/-
  Column forms of two layout operations, read at an index built from coordinates.

  A sum over the last axis taken with the reduced axis kept (a column of row sums) meets two layout operations the
  library reads only in their row forms: the cast of a vector `[a]` to a column `[a, 1]`, and the broadcast of a column
  `[a, 1]` across `b` columns to `[a, b]`. Both read, at `(i, ·)`, the operand's entry of row `i`.
-/
import Idealize.ShloMosaic.Lib.Pipeline.Value
import Idealize.ShloMosaic.Lib.ValueIdx

namespace Idealize.ShloMosaic.ColumnLayout

open Idealize.ShloMosaic Idealize.ShloMosaic.ValueIdx

variable {α : Type}

/-- A vector `[a]` cast to a column `[a, 1]` reads, at `(i, u)`, the operand at `i`, whatever the unit coordinate `u`:
    both positions are the `i`-th in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's one entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ColumnLayout
-- ==== Proof.LibPlainDot.lean ====
/-
  A plain matrix product read at an index, at the ideal values.

  The dimension numbers `DotDims.plain M K N` contract the second axis of an `M × K` left operand with the first axis of a
  `K × N` right operand. At the ideal instance a `tpu.matmul` with these numbers into the zero accumulator, and the
  host's `dot_general` with the same numbers, are both — at the result index `(p, q)` — the finite sum over `k : Fin K`
  of `lhs (p, k) * rhs (k, q)` on the extended reals. Nothing is assumed of `M`, `K`, `N` or of the operands' formats.

  The proof names the two operand indices coordinate by coordinate (`lhsIdx_plain`, `rhsIdx_plain`: a batch-free,
  single-contraction record sends `(p, q)` and `k` to `(p, k)` and `(k, q)`) and re-indexes the one-axis contraction shape
  by its coordinate.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable (M K N : Nat)

/-- The one-axis contraction shape of a plain product, identified with `Fin K`. -/
abbrev contrFin : (DotDims.plain M K N).contr.Idx ≃ Fin K := contrEquiv1 (DotDims.plain M K N) K rfl rfl

/-- The left operand's index at result index `(p, q)` and contraction coordinate `k` is `(p, k)`. -/
theorem lhsIdx_plain (p : Fin M) (q : Fin N) (k : Fin K) :
    (DotDims.plain M K N).lhsIdx (ix2 p q) ((contrFin M K N).symm k) = ix2 p k := by
  funext a
  apply Fin.ext
  match a with
  | ⟨0, _⟩ =>
    show ((DotDims.plain M K N).lhsIdx (ix2 p q) ((contrFin M K N).symm k) (0 : Fin 2)).val = p.val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ =>
    show ((DotDims.plain M K N).lhsIdx (ix2 p q) ((contrFin M K N).symm k) (1 : Fin 2)).val = k.val
    exact ((DotDims.plain M K N).lhsIdx_val_of_single rfl _ _).trans
      (contrEquiv1_symm_val (DotDims.plain M K N) K rfl rfl k)

/-- The right operand's index at result index `(p, q)` and contraction coordinate `k` is `(k, q)`. -/
theorem rhsIdx_plain (p : Fin M) (q : Fin N) (k : Fin K) :
    (DotDims.plain M K N).rhsIdx (ix2 p q) ((contrFin M K N).symm k) = ix2 k q := by
  funext a
  apply Fin.ext
  match a with
  | ⟨0, _⟩ =>
    show ((DotDims.plain M K N).rhsIdx (ix2 p q) ((contrFin M K N).symm k) (0 : Fin 2)).val = k.val
    exact ((DotDims.plain M K N).rhsIdx_val_of_single rfl _ _).trans
      (contrEquiv1_symm_val (DotDims.plain M K N) K rfl rfl k)
  | ⟨1, _⟩ =>
    show ((DotDims.plain M K N).rhsIdx (ix2 p q) ((contrFin M K N).symm k) (1 : Fin 2)).val = q.val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- The contraction sum of a plain product at `(p, q)`, over `Fin K`. -/
theorem sum_plain (lhs : (⟨2, ![M, K]⟩ : Shape).Idx → EReal) (rhs : (⟨2, ![K, N]⟩ : Shape).Idx → EReal) (p : Fin M) (q : Fin N) :
    (∑ c : (DotDims.plain M K N).contr.Idx,
        lhs ((DotDims.plain M K N).lhsIdx (ix2 p q) c) * rhs ((DotDims.plain M K N).rhsIdx (ix2 p q) c))
      = ∑ k : Fin K, lhs (ix2 p k) * rhs (ix2 k q) := by
  rw [← Equiv.sum_comp (contrFin M K N).symm]
  exact Finset.sum_congr rfl fun k _ => by rw [lhsIdx_plain, rhsIdx_plain]

/-- A `tpu.matmul` with plain dimension numbers into the zero accumulator, at the ideal values, read at `(p, q)`. -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) :=
  (Ideal.matmul_constant_zero_apply (DotDims.plain M K N) prec lhs rhs (ix2 p q)).trans (sum_plain M K N lhs rhs p q)

/-- The host's `dot_general` with plain dimension numbers, at the ideal values, read at `(p, q)`. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) :=
  (Ideal.dotGeneral_apply (DotDims.plain M K N) prec sched lhs rhs (ix2 p q)).trans (sum_plain M K N lhs rhs p q)

end Cert.Lib.PlainDot

end
-- ==== Proof.Region0.lean ====
/-
  What the first region leaves in its output array, at the ideal values.

  The region walks 20 row blocks of 5000 rows.  At block `t` its body reads rows `5000 t … 5000 t + 4999` of the node
  features `x` (128 columns), the whole weight matrix `w` (128 × 64) and the same rows of the one-column array of
  scale factors `n`; it multiplies the block of `x` by `w` into a zero accumulator and scales row `r` of the
  product by `n (r, 0)`.  At the ideal values a change of float format is the identity, so entry `(r, q)` of what is
  written is `(∑ k, x (r, k) * w (k, q)) * n (r, 0)`.  The 20 blocks tile the 100000 rows, so the whole output array is
  that function.
-/
import proofs.«112946_j24773371363585_2_alg».proof.Proof.Gen.KernelIdeal.Frame
import proofs.«112946_j24773371363585_2_alg».proof.Proof.LibColumnLayout
import proofs.«112946_j24773371363585_2_alg».proof.Proof.LibPlainDot
import Idealize.ShloMosaic.Lib.Pipeline.Value
import Idealize.ShloMosaic.Lib.ValueIdx

set_option maxRecDepth 16384

noncomputable section

open scoped BigOperators

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)

/-- The matrix product `x w` with row `r` scaled by the factor of row `r`. -/
def scaledProduct (x : S100000x128.Idx → EReal) (w : S128x64.Idx → EReal) (n : S100000x1.Idx → EReal) : S100000x64.Idx → EReal :=
  fun i => (∑ k : Fin 128, x (ix2 (i 0) k) * w (ix2 k (i 1))) * n (ix2 (i 0) (0 : Fin 1))

/-- The body's stored value at entry `j` of a block: the product of the loaded block of `x` with the loaded `w` at
    `j`, times the loaded factor of `j`'s row. -/
theorem pay_apply (x0 : Vec Ideal S5000x128 .f32) (x1 : Vec Ideal S128x64 .f32) (x2 : Vec Ideal S5000x1 .f32) (j : S5000x64.Idx) :
    k0_pay1 x0 x1 x2 j = (∑ k : Fin 128, x0 (ix2 (j 0) k) * x1 (ix2 k (j 1))) * x2 (ix2 (j 0) (0 : Fin 1)) := by
  obtain ⟨p, q, rfl⟩ : ∃ (p : Fin 5000) (q : Fin 64), j = ix2 p q := ⟨j 0, j 1, eq_ix2 j⟩
  unfold k0_pay1
  show FloatOps.matmul dot_S5000x128_S128x64_S5000x64_1_0_0_1_n_n none (truncf .bf16 x0 _ : FVec Ideal S5000x128 .bf16)
        (truncf .bf16 x1 _ : FVec Ideal S128x64 .bf16) (constant S5000x64 .f32 0x00000000#32) (ix2 p q)
      * broadcastTo S5000x64 (shapeCast S5000x1 x2 _) _ (ix2 p q) = _
  rw [shapeCast_self, ColumnLayout.broadcastTo_a1_ab_apply]
  exact congrArg (· * x2 (ix2 p (0 : Fin 1))) (Cert.Lib.PlainDot.matmul_zero_apply 5000 128 64 none _ _ p q)

variable (V : (c : Dev nD) → (b : Ref sig .tc) → Buf (Elt Ideal) ((c : Thread nD τ).loc b))

theorem offsets_zero : (![0, 0] : Fin 2 → Nat) = fun _ => 0 := funext fun a => by fin_cases a <;> rfl

/-- The printed index maps over the 20 points: the row-blocked windows move together, the weight window stays, and the
    block index never leaves its range. -/
theorem idx_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = win0_3.index t (0 : Fin 2) ∧ win0_2.index t (1 : Fin 2) = 0
    ∧ win0_3.index t (1 : Fin 2) = 0 ∧ win0_3.index t (0 : Fin 2) ≤ 19 :=
  (by decide +kernel : ∀ t : Fin grid0.N, _)

/-- Every row block is some point's. -/
theorem idx_onto : ∀ q0 : Fin 20, ∃ t : Fin cfg0.N, win0_3.index t = ![q0.val, 0] :=
  (by decide +kernel : ∀ q0 : Fin 20, ∃ t : Fin grid0.N, win0_3.index t = ![q0.val, 0])

/-- Entry `(p, k)` of the block of `x` at point `t` is entry `(row of p in the array, k)` of `x`. -/
theorem read_x (c : Dev nD) (t : Fin cfg0.N) (j : S5000x64.Idx) (k : Fin 128)
    (e0 : win0_0.index t (0 : Fin 2) = win0_3.index t (0 : Fin 2)) (e1 : win0_0.index t (1 : Fin 2) = 0) :
    iblk0 V c 0 t (ix2 (j 0) k) = V c main_arg0 (ix2 ((((cfg0.win 3).blk t).view.emb j) 0) k) := by
  show V c main_arg0 (((cfg0.win 0).blk t).view.emb (ix2 (j 0) k)) = _
  refine congrArg (V c main_arg0) ?_
  funext a; apply Fin.ext
  match a with
  | ⟨0, _⟩ => show win0_0.index t (0 : Fin 2) * 5000 + 1 * (j 0).val = win0_3.index t (0 : Fin 2) * 5000 + 1 * (j 0).val; omega
  | ⟨1, _⟩ => show win0_0.index t (1 : Fin 2) * 128 + 1 * k.val = k.val; omega

/-- Entry `(k, q)` of the block of `w` at any point is entry `(k, column of q in the array)` of `w`. -/
theorem read_w (c : Dev nD) (t : Fin cfg0.N) (j : S5000x64.Idx) (k : Fin 128)
    (e2 : win0_1.index t (0 : Fin 2) = 0) (e3 : win0_1.index t (1 : Fin 2) = 0) (e6 : win0_3.index t (1 : Fin 2) = 0) :
    iblk0 V c 1 t (ix2 k (j 1)) = V c main_arg3 (ix2 k ((((cfg0.win 3).blk t).view.emb j) 1)) := by
  show V c main_arg3 (((cfg0.win 1).blk t).view.emb (ix2 k (j 1))) = _
  refine congrArg (V c main_arg3) ?_
  funext a; apply Fin.ext
  match a with
  | ⟨0, _⟩ => show win0_1.index t (0 : Fin 2) * 128 + 1 * k.val = k.val; omega
  | ⟨1, _⟩ => show win0_1.index t (1 : Fin 2) * 64 + 1 * (j 1).val = win0_3.index t (1 : Fin 2) * 64 + 1 * (j 1).val; omega

/-- The factor of row `p` of the block at point `t` is the factor of `p`'s row in the array. -/
theorem read_n (c : Dev nD) (t : Fin cfg0.N) (j : S5000x64.Idx)
    (e4 : win0_2.index t (0 : Fin 2) = win0_3.index t (0 : Fin 2)) (e5 : win0_2.index t (1 : Fin 2) = 0) :
    iblk0 V c 2 t (ix2 (j 0) (0 : Fin 1)) = V c main_v12 (ix2 ((((cfg0.win 3).blk t).view.emb j) 0) (0 : Fin 1)) := by
  show V c main_v12 (((cfg0.win 2).blk t).view.emb (ix2 (j 0) (0 : Fin 1))) = _
  refine congrArg (V c main_v12) ?_
  funext a; apply Fin.ext
  match a with
  | ⟨0, _⟩ => show win0_2.index t (0 : Fin 2) * 5000 + 1 * (j 0).val = win0_3.index t (0 : Fin 2) * 5000 + 1 * (j 0).val; omega
  | ⟨1, _⟩ => show win0_2.index t (1 : Fin 2) * 1 + 1 * 0 = 0; omega

/-- What point `t` writes back is block `t` of `scaledProduct` of the arrays the region finds. -/
theorem flushed_eq (c : Dev nD) (t : Fin cfg0.N) :
    (dat0 V c).flushed 3 t
      = ((cfg0.win 3).blk t).view.read (Elt Ideal) (scaledProduct (V c main_arg0) (V c main_arg3) (V c main_v12)) := by
  show (cfg0.win 3).cut (grid0.coords t) ((dat0 V c).after 3 t) = _
  rw [after0_3]
  unfold out0_3
  rw [View.canon_unit_zero offsets_zero]
  simp only [View.ld_unit_zero (S := S5000x128) offsets_zero, View.ld_unit_zero (S := S128x64) offsets_zero,
    View.ld_unit_zero (S := S5000x1) offsets_zero]
  obtain ⟨e0, e1, e2, e3, e4, e5, e6, e7⟩ := idx_facts t
  funext j
  refine (pay_apply (iblk0 V c 0 t) (iblk0 V c 1 t) (iblk0 V c 2 t) j).trans ?_
  show _ = scaledProduct (V c main_arg0) (V c main_arg3) (V c main_v12) (((cfg0.win 3).blk t).view.emb j)
  unfold scaledProduct
  rw [read_n V c t j e4 e5]
  refine congrArg₂ (fun u v : EReal => u * v) (Finset.sum_congr rfl fun k _ => ?_) rfl
  rw [read_x V c t j k e0 e1, read_w V c t j k e2 e3 e6]

/-- An index of the output array is in point `t`'s block iff each coordinate is in the block's range on its axis. -/
theorem mem_blk (t : Fin cfg0.N) (i : S100000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v13).slice (win0_3.rect t)).set ↔ _
  rw [View.set_slice_whole, Rect.mem_set_unit]
  exact Iff.rfl

/-- Row `r` lies in the block of the point whose block index is `r / 5000`: the blocks cover the array. -/
theorem cover (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  obtain ⟨t, ht⟩ := idx_onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 64 ≤ (i 1).val ∧ (i 1).val < win0_3.index t (1 : Fin 2) * 64 + 64; omega

/-- The output array after the region is `scaledProduct` of the arrays the region finds. -/
theorem array_eq (c : Dev nD) :
    (dat0 V c).arrAt 3 cfg0.N = scaledProduct (V c main_arg0) (V c main_arg3) (V c main_v12) :=
  (dat0 V c).arrAt_eq_of_cover 3 _ (fun t _ => flushed_eq V c t) cover

end Cert.KernelIdeal.Region0

end
-- ==== Proof.Region1.lean ====
/-
  What the middle region leaves in its output array, at the ideal values.

  The region walks 20 row blocks of 5000 rows.  At block `t` its body reads rows `5000 t … 5000 t + 4999` of the
  aggregated features `a` (64 columns), the same rows of two one-column arrays of scale factors `nd` and `ns`, the
  one-row array of biases `b` and the whole weight matrix `w` (64 × 64).  It forms `h = max (a · nd + b) 0`, multiplies
  `h` by `w` into a zero accumulator and scales row `r` of the product by `ns (r, 0)`.  At the ideal values a change of
  float format is the identity, so entry `(r, q)` of what is written is
  `(∑ k, max (a (r, k) * nd (r, 0) + b (0, k)) 0 * w (k, q)) * ns (r, 0)`, the zero being the kernel's literal word.
  The 20 blocks tile the 100000 rows, so the whole output array is that function.
-/
import proofs.«112946_j24773371363585_2_alg».proof.Proof.Gen.KernelIdeal.Frame
import proofs.«112946_j24773371363585_2_alg».proof.Proof.LibColumnLayout
import proofs.«112946_j24773371363585_2_alg».proof.Proof.LibPlainDot
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)

/-- The rectified, scaled and shifted rows of `a`, multiplied by `w`, row `r` of the product scaled by `ns (r, 0)`. -/
def rectifiedProduct (a : S100000x64.Idx → EReal) (nd : S100000x1.Idx → EReal) (b : S1x64.Idx → EReal)
    (ns : S100000x1.Idx → EReal) (w : S64x64.Idx → EReal) : S100000x64.Idx → EReal :=
  fun i => (∑ k : Fin 64, max (a (ix2 (i 0) k) * nd (ix2 (i 0) (0 : Fin 1)) + b (ix2 (0 : Fin 1) k)) (Ideal.ofBits .f32 0x00000000#32)
      * w (ix2 k (i 1))) * ns (ix2 (i 0) (0 : Fin 1))

/-- The body's stored value at entry `j` of a block, from its five loaded blocks (in the order the body loads them:
    features, first factors, biases, weights, second factors). -/
theorem pay_apply (x0 : Vec Ideal S5000x64 .f32) (x1 : Vec Ideal S5000x1 .f32) (x2 : Vec Ideal S1x64 .f32)
    (x3 : Vec Ideal S64x64 .f32) (x4 : Vec Ideal S5000x1 .f32) (j : S5000x64.Idx) :
    k1_pay1 x0 x1 x2 x3 x4 j
      = (∑ k : Fin 64, max (x0 (ix2 (j 0) k) * x1 (ix2 (j 0) (0 : Fin 1)) + x2 (ix2 (0 : Fin 1) k)) (Ideal.ofBits .f32 0x00000000#32)
          * x3 (ix2 k (j 1))) * x4 (ix2 (j 0) (0 : Fin 1)) := by
  obtain ⟨p, q, rfl⟩ : ∃ (p : Fin 5000) (q : Fin 64), j = ix2 p q := ⟨j 0, j 1, eq_ix2 j⟩
  unfold k1_pay1
  show FloatOps.matmul dot_S5000x64_S64x64_S5000x64_1_0_0_1_n_n none
        (truncf .bf16 (maximumf (addf (mulf (shapeCast S5000x64 x0 _) (broadcastTo S5000x64 (shapeCast S5000x1 x1 _) _))
            (broadcastTo S5000x64 (shapeCast S1x64 x2 _) _)) (broadcast S5000x64 (Scalar.ofBits .f32 0x00000000#32))) _ : FVec Ideal S5000x64 .bf16)
        (truncf .bf16 x3 _ : FVec Ideal S64x64 .bf16) (constant S5000x64 .f32 0x00000000#32) (ix2 p q)
      * broadcastTo S5000x64 (shapeCast S5000x1 x4 _) _ (ix2 p q) = _
  rw [shapeCast_self x4, ColumnLayout.broadcastTo_a1_ab_apply]
  refine congrArg (· * x4 (ix2 p (0 : Fin 1)))
    ((Cert.Lib.PlainDot.matmul_zero_apply 5000 64 64 none _ _ p q).trans (Finset.sum_congr rfl fun k _ => ?_))
  show max (shapeCast S5000x64 x0 _ (ix2 p k) * broadcastTo S5000x64 (shapeCast S5000x1 x1 _) _ (ix2 p k)
        + broadcastTo S5000x64 (shapeCast S1x64 x2 _) _ (ix2 p k)) (Ideal.ofBits .f32 0x00000000#32) * x3 (ix2 k q) = _
  rw [shapeCast_self x0, shapeCast_self x1, shapeCast_self x2, ColumnLayout.broadcastTo_a1_ab_apply, broadcastTo_1b_ab_apply]

variable (V : (c : Dev nD) → (b : Ref sig .tc) → Buf (Elt Ideal) ((c : Thread nD τ).loc b))

theorem offsets_zero : (![0, 0] : Fin 2 → Nat) = fun _ => 0 := funext fun a => by fin_cases a <;> rfl

/-- The printed index maps over the 20 points: the row-blocked windows move together, the bias and weight windows
    stay, and the block index never leaves its range. -/
theorem idx_facts : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = win1_5.index t (0 : Fin 2) ∧ win1_3.index t (1 : Fin 2) = 0
    ∧ win1_4.index t (0 : Fin 2) = 0 ∧ win1_4.index t (1 : Fin 2) = 0
    ∧ win1_5.index t (1 : Fin 2) = 0 ∧ win1_5.index t (0 : Fin 2) ≤ 19 :=
  (by decide +kernel : ∀ t : Fin grid1.N, _)

/-- Every row block is some point's. -/
theorem idx_onto : ∀ q0 : Fin 20, ∃ t : Fin cfg1.N, win1_5.index t = ![q0.val, 0] :=
  (by decide +kernel : ∀ q0 : Fin 20, ∃ t : Fin grid1.N, win1_5.index t = ![q0.val, 0])

/-- Entry `(p, k)` of the block of `a` at point `t` is entry `(row of p in the array, k)` of `a`. -/
theorem read_a (c : Dev nD) (t : Fin cfg1.N) (j : S5000x64.Idx) (k : Fin 64)
    (e0 : win1_0.index t (0 : Fin 2) = win1_5.index t (0 : Fin 2)) (e1 : win1_0.index t (1 : Fin 2) = 0) :
    iblk1 V c 0 t (ix2 (j 0) k) = V c main_v24 (ix2 ((((cfg1.win 5).blk t).view.emb j) 0) k) := by
  show V c main_v24 (((cfg1.win 0).blk t).view.emb (ix2 (j 0) k)) = _
  refine congrArg (V c main_v24) ?_
  funext a; apply Fin.ext
  match a with
  | ⟨0, _⟩ => show win1_0.index t (0 : Fin 2) * 5000 + 1 * (j 0).val = win1_5.index t (0 : Fin 2) * 5000 + 1 * (j 0).val; omega
  | ⟨1, _⟩ => show win1_0.index t (1 : Fin 2) * 64 + 1 * k.val = k.val; omega

/-- The first factor of row `p` of the block at point `t` is the factor of `p`'s row in the array. -/
theorem read_nd (c : Dev nD) (t : Fin cfg1.N) (j : S5000x64.Idx)
    (e2 : win1_1.index t (0 : Fin 2) = win1_5.index t (0 : Fin 2)) (e3 : win1_1.index t (1 : Fin 2) = 0) :
    iblk1 V c 1 t (ix2 (j 0) (0 : Fin 1)) = V c main_v25 (ix2 ((((cfg1.win 5).blk t).view.emb j) 0) (0 : Fin 1)) := by
  show V c main_v25 (((cfg1.win 1).blk t).view.emb (ix2 (j 0) (0 : Fin 1))) = _
  refine congrArg (V c main_v25) ?_
  funext a; apply Fin.ext
  match a with
  | ⟨0, _⟩ => show win1_1.index t (0 : Fin 2) * 5000 + 1 * (j 0).val = win1_5.index t (0 : Fin 2) * 5000 + 1 * (j 0).val; omega
  | ⟨1, _⟩ => show win1_1.index t (1 : Fin 2) * 1 + 1 * 0 = 0; omega

/-- The bias of column `k` of the block at any point is the bias of column `k` of the array. -/
theorem read_b (c : Dev nD) (t : Fin cfg1.N) (k : Fin 64)
    (e4 : win1_2.index t (0 : Fin 2) = 0) (e5 : win1_2.index t (1 : Fin 2) = 0) :
    iblk1 V c 2 t (ix2 (0 : Fin 1) k) = V c main_v27 (ix2 (0 : Fin 1) k) := by
  show V c main_v27 (((cfg1.win 2).blk t).view.emb (ix2 (0 : Fin 1) k)) = _
  refine congrArg (V c main_v27) ?_
  funext a; apply Fin.ext
  match a with
  | ⟨0, _⟩ => show win1_2.index t (0 : Fin 2) * 1 + 1 * 0 = 0; omega
  | ⟨1, _⟩ => show win1_2.index t (1 : Fin 2) * 64 + 1 * k.val = k.val; omega

/-- The second factor of row `p` of the block at point `t` is the factor of `p`'s row in the array. -/
theorem read_ns (c : Dev nD) (t : Fin cfg1.N) (j : S5000x64.Idx)
    (e6 : win1_3.index t (0 : Fin 2) = win1_5.index t (0 : Fin 2)) (e7 : win1_3.index t (1 : Fin 2) = 0) :
    iblk1 V c 3 t (ix2 (j 0) (0 : Fin 1)) = V c main_v26 (ix2 ((((cfg1.win 5).blk t).view.emb j) 0) (0 : Fin 1)) := by
  show V c main_v26 (((cfg1.win 3).blk t).view.emb (ix2 (j 0) (0 : Fin 1))) = _
  refine congrArg (V c main_v26) ?_
  funext a; apply Fin.ext
  match a with
  | ⟨0, _⟩ => show win1_3.index t (0 : Fin 2) * 5000 + 1 * (j 0).val = win1_5.index t (0 : Fin 2) * 5000 + 1 * (j 0).val; omega
  | ⟨1, _⟩ => show win1_3.index t (1 : Fin 2) * 1 + 1 * 0 = 0; omega

/-- Entry `(k, q)` of the block of `w` at any point is entry `(k, column of q in the array)` of `w`. -/
theorem read_w (c : Dev nD) (t : Fin cfg1.N) (j : S5000x64.Idx) (k : Fin 64)
    (e8 : win1_4.index t (0 : Fin 2) = 0) (e9 : win1_4.index t (1 : Fin 2) = 0) (e10 : win1_5.index t (1 : Fin 2) = 0) :
    iblk1 V c 4 t (ix2 k (j 1)) = V c main_arg5 (ix2 k ((((cfg1.win 5).blk t).view.emb j) 1)) := by
  show V c main_arg5 (((cfg1.win 4).blk t).view.emb (ix2 k (j 1))) = _
  refine congrArg (V c main_arg5) ?_
  funext a; apply Fin.ext
  match a with
  | ⟨0, _⟩ => show win1_4.index t (0 : Fin 2) * 64 + 1 * k.val = k.val; omega
  | ⟨1, _⟩ => show win1_4.index t (1 : Fin 2) * 64 + 1 * (j 1).val = win1_5.index t (1 : Fin 2) * 64 + 1 * (j 1).val; omega

/-- What point `t` writes back is block `t` of `rectifiedProduct` of the arrays the region finds. -/
theorem flushed_eq (c : Dev nD) (t : Fin cfg1.N) :
    (dat1 V c).flushed 5 t
      = ((cfg1.win 5).blk t).view.read (Elt Ideal)
          (rectifiedProduct (V c main_v24) (V c main_v25) (V c main_v27) (V c main_v26) (V c main_arg5)) := by
  show (cfg1.win 5).cut (grid1.coords t) ((dat1 V c).after 5 t) = _
  rw [after1_5]
  unfold out1_5
  rw [View.canon_unit_zero offsets_zero]
  simp only [View.ld_unit_zero (S := S5000x64) offsets_zero, View.ld_unit_zero (S := S5000x1) offsets_zero,
    View.ld_unit_zero (S := S1x64) offsets_zero, View.ld_unit_zero (S := S64x64) offsets_zero]
  obtain ⟨e0, e1, e2, e3, e4, e5, e6, e7, e8, e9, e10, e11⟩ := idx_facts t
  funext j
  refine (pay_apply (iblk1 V c 0 t) (iblk1 V c 1 t) (iblk1 V c 2 t) (iblk1 V c 4 t) (iblk1 V c 3 t) j).trans ?_
  show _ = rectifiedProduct (V c main_v24) (V c main_v25) (V c main_v27) (V c main_v26) (V c main_arg5)
      (((cfg1.win 5).blk t).view.emb j)
  unfold rectifiedProduct
  rw [read_ns V c t j e6 e7, read_nd V c t j e2 e3]
  refine congrArg₂ (fun u v : EReal => u * v) (Finset.sum_congr rfl fun k _ => ?_) rfl
  rw [read_a V c t j k e0 e1, read_b V c t k e4 e5, read_w V c t j k e8 e9 e10]

/-- An index of the output array is in point `t`'s block iff each coordinate is in the block's range on its axis. -/
theorem mem_blk (t : Fin cfg1.N) (i : S100000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v28).slice (win1_5.rect t)).set ↔ _
  rw [View.set_slice_whole, Rect.mem_set_unit]
  exact Iff.rfl

/-- Row `r` lies in the block of the point whose block index is `r / 5000`: the blocks cover the array. -/
theorem cover (i : S100000x64.Idx) : ∃ t : Fin cfg1.N, (cfg1.win 5).flush t = true ∧ i ∈ ((cfg1.win 5).blk t).view.set := by
  have hi0 : (i 0).val < 100000 := (i 0).isLt
  have hi1 : (i 1).val < 64 := (i 1).isLt
  obtain ⟨t, ht⟩ := idx_onto ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 64 ≤ (i 1).val ∧ (i 1).val < win1_5.index t (1 : Fin 2) * 64 + 64; omega

/-- The output array after the region is `rectifiedProduct` of the arrays the region finds. -/
theorem array_eq (c : Dev nD) :
    (dat1 V c).arrAt 5 cfg1.N
      = rectifiedProduct (V c main_v24) (V c main_v25) (V c main_v27) (V c main_v26) (V c main_arg5) :=
  (dat1 V c).arrAt_eq_of_cover 5 _ (fun t _ => flushed_eq V c t) cover

end Cert.KernelIdeal.Region1

end
-- ==== Proof.Region2.lean ====
/-
  What the last region leaves in its output array, at the ideal values.

  The region walks 20 row blocks of 5000 rows.  At block `t` its body reads rows `5000 t … 5000 t + 4999` of the
  aggregated features `a` (64 columns), the same rows of the one-column array of scale factors `n`, and the one-row
  array of biases `b`, and writes `a · n + b` to the same rows of the output: entry `(r, q)` is
  `a (r, q) * n (r, 0) + b (0, q)`.  The 20 blocks tile the 100000 rows, so the whole output array is that function.
-/
import proofs.«112946_j24773371363585_2_alg».proof.Proof.Gen.KernelIdeal.Frame
import proofs.«112946_j24773371363585_2_alg».proof.Proof.LibColumnLayout
import Idealize.ShloMosaic.Lib.Pipeline.Value
import Idealize.ShloMosaic.Lib.ValueIdx
import Idealize.ShloMosaic.Lib.ValueLayout

set_option maxRecDepth 16384

noncomputable section

namespace Cert.KernelIdeal.Region2

open Cert.KernelIdeal Cert.KernelIdeal.Gen Idealize.ShloMosaic Idealize.ShloMosaic.TcCoe Idealize.SL.Sem
open Idealize.ShloMosaic.ValueIdx
open Idealize.ShloMosaic.Pipeline (Dat)

/-- Row `r` of `a` scaled by the factor of row `r` and shifted by the bias of each column. -/
def scaleShift (a : S100000x64.Idx → EReal) (n : S100000x1.Idx → EReal) (b : S1x64.Idx → EReal) : S100000x64.Idx → EReal :=
  fun i => a i * n (ix2 (i 0) (0 : Fin 1)) + b (ix2 (0 : Fin 1) (i 1))

/-- The body's stored value at entry `j` of a block: the loaded block of `a` at `j`, times the loaded factor of `j`'s
    row, plus the loaded bias of `j`'s column. -/
theorem pay_apply (x0 : Vec Ideal S5000x64 .f32) (x1 : Vec Ideal S5000x1 .f32) (x2 : Vec Ideal S1x64 .f32) (j : S5000x64.Idx) :
    k2_pay1 x0 x1 x2 j = x0 j * x1 (ix2 (j 0) (0 : Fin 1)) + x2 (ix2 (0 : Fin 1) (j 1)) := by
  obtain ⟨p, q, rfl⟩ : ∃ (p : Fin 5000) (q : Fin 64), j = ix2 p q := ⟨j 0, j 1, eq_ix2 j⟩
  unfold k2_pay1
  show (shapeCast S5000x64 x0 _ (ix2 p q)) * (broadcastTo S5000x64 (shapeCast S5000x1 x1 _) _ (ix2 p q))
      + broadcastTo S5000x64 (shapeCast S1x64 x2 _) _ (ix2 p q) = _
  rw [shapeCast_self, shapeCast_self, shapeCast_self, ColumnLayout.broadcastTo_a1_ab_apply, broadcastTo_1b_ab_apply]

variable (V : (c : Dev nD) → (b : Ref sig .tc) → Buf (Elt Ideal) ((c : Thread nD τ).loc b))

theorem offsets_zero : (![0, 0] : Fin 2 → Nat) = fun _ => 0 := funext fun a => by fin_cases a <;> rfl

/-- The printed index maps over the 20 points: the row-blocked windows move together, the bias window stays, and the
    block index never leaves its range. -/
theorem idx_facts : ∀ t : Fin cfg2.N,
    win2_0.index t (0 : Fin 2) = win2_3.index t (0 : Fin 2) ∧ win2_0.index t (1 : Fin 2) = 0
    ∧ win2_1.index t (0 : Fin 2) = win2_3.index t (0 : Fin 2) ∧ win2_1.index t (1 : Fin 2) = 0
    ∧ win2_2.index t (0 : Fin 2) = 0 ∧ win2_2.index t (1 : Fin 2) = 0
    ∧ win2_3.index t (1 : Fin 2) = 0 ∧ win2_3.index t (0 : Fin 2) ≤ 19 :=
  (by decide +kernel : ∀ t : Fin grid2.N, _)

/-- Every row block is some point's. -/
theorem idx_onto : ∀ q0 : Fin 20, ∃ t : Fin cfg2.N, win2_3.index t = ![q0.val, 0] :=
  (by decide +kernel : ∀ q0 : Fin 20, ∃ t : Fin grid2.N, win2_3.index t = ![q0.val, 0])

/-- Entry `j` of the block of `a` at point `t` is the entry of `a` at `j`'s place in the array. -/
theorem read_a (c : Dev nD) (t : Fin cfg2.N) (j : S5000x64.Idx)
    (e0 : win2_0.index t (0 : Fin 2) = win2_3.index t (0 : Fin 2)) (e1 : win2_0.index t (1 : Fin 2) = 0)
    (e6 : win2_3.index t (1 : Fin 2) = 0) :
    iblk2 V c 0 t j = V c main_v39 (((cfg2.win 3).blk t).view.emb j) := by
  show V c main_v39 (((cfg2.win 0).blk t).view.emb j) = _
  refine congrArg (V c main_v39) ?_
  funext a; apply Fin.ext
  match a with
  | ⟨0, _⟩ => show win2_0.index t (0 : Fin 2) * 5000 + 1 * (j 0).val = win2_3.index t (0 : Fin 2) * 5000 + 1 * (j 0).val; omega
  | ⟨1, _⟩ => show win2_0.index t (1 : Fin 2) * 64 + 1 * (j 1).val = win2_3.index t (1 : Fin 2) * 64 + 1 * (j 1).val; omega

/-- The factor of row `p` of the block at point `t` is the factor of `p`'s row in the array. -/
theorem read_n (c : Dev nD) (t : Fin cfg2.N) (j : S5000x64.Idx)
    (e2 : win2_1.index t (0 : Fin 2) = win2_3.index t (0 : Fin 2)) (e3 : win2_1.index t (1 : Fin 2) = 0) :
    iblk2 V c 1 t (ix2 (j 0) (0 : Fin 1)) = V c main_v40 (ix2 ((((cfg2.win 3).blk t).view.emb j) 0) (0 : Fin 1)) := by
  show V c main_v40 (((cfg2.win 1).blk t).view.emb (ix2 (j 0) (0 : Fin 1))) = _
  refine congrArg (V c main_v40) ?_
  funext a; apply Fin.ext
  match a with
  | ⟨0, _⟩ => show win2_1.index t (0 : Fin 2) * 5000 + 1 * (j 0).val = win2_3.index t (0 : Fin 2) * 5000 + 1 * (j 0).val; omega
  | ⟨1, _⟩ => show win2_1.index t (1 : Fin 2) * 1 + 1 * 0 = 0; omega

/-- The bias of column `q` of the block at any point is the bias of `q`'s column in the array. -/
theorem read_b (c : Dev nD) (t : Fin cfg2.N) (j : S5000x64.Idx)
    (e4 : win2_2.index t (0 : Fin 2) = 0) (e5 : win2_2.index t (1 : Fin 2) = 0) (e6 : win2_3.index t (1 : Fin 2) = 0) :
    iblk2 V c 2 t (ix2 (0 : Fin 1) (j 1)) = V c main_v41 (ix2 (0 : Fin 1) ((((cfg2.win 3).blk t).view.emb j) 1)) := by
  show V c main_v41 (((cfg2.win 2).blk t).view.emb (ix2 (0 : Fin 1) (j 1))) = _
  refine congrArg (V c main_v41) ?_
  funext a; apply Fin.ext
  match a with
  | ⟨0, _⟩ => show win2_2.index t (0 : Fin 2) * 1 + 1 * 0 = 0; omega
  | ⟨1, _⟩ => show win2_2.index t (1 : Fin 2) * 64 + 1 * (j 1).val = win2_3.index t (1 : Fin 2) * 64 + 1 * (j 1).val; omega

/-- What point `t` writes back is block `t` of `scaleShift` of the arrays the region finds. -/
theorem flushed_eq (c : Dev nD) (t : Fin cfg2.N) :
    (dat2 V c).flushed 3 t
      = ((cfg2.win 3).blk t).view.read (Elt Ideal) (scaleShift (V c main_v39) (V c main_v40) (V c main_v41)) := by
  show (cfg2.win 3).cut (grid2.coords t) ((dat2 V c).after 3 t) = _
  rw [after2_3]
  unfold out2_3
  rw [View.canon_unit_zero offsets_zero]
  simp only [View.ld_unit_zero (S := S5000x64) offsets_zero, View.ld_unit_zero (S := S5000x1) offsets_zero,
    View.ld_unit_zero (S := S1x64) offsets_zero]
  obtain ⟨e0, e1, e2, e3, e4, e5, e6, e7⟩ := idx_facts t
  funext j
  refine (pay_apply (iblk2 V c 0 t) (iblk2 V c 1 t) (iblk2 V c 2 t) j).trans ?_
  show _ = scaleShift (V c main_v39) (V c main_v40) (V c main_v41) (((cfg2.win 3).blk t).view.emb j)
  unfold scaleShift
  rw [read_a V c t j e0 e1 e6, read_n V c t j e2 e3, read_b V c t j e4 e5 e6]

/-- An index of the output array is in point `t`'s block iff each coordinate is in the block's range on its axis. -/
theorem mem_blk (t : Fin cfg2.N) (i : S100000x64.Idx) :
    i ∈ ((cfg2.win 3).blk t).view.set ↔ ∀ a : Fin 2, win2_3.index t a * S5000x64.size a ≤ (i a).val ∧ (i a).val < win2_3.index t a * S5000x64.size a + S5000x64.size a := by
  show i ∈ ((View.whole main_v42).slice (win2_3.rect t)).set ↔ _
  rw [View.set_slice_whole, Rect.mem_set_unit]
  exact Iff.rfl

/-- Row `r` lies in the block of the point whose block index is `r / 5000`: the blocks cover the array. -/
theorem cover (i : S100000x64.Idx) : ∃ t : Fin cfg2.N, (cfg2.win 3).flush t = true ∧ i ∈ ((cfg2.win 3).blk t).view.set := by
  have hi0 : (i 0).val < 100000 := (i 0).isLt
  have hi1 : (i 1).val < 64 := (i 1).isLt
  obtain ⟨t, ht⟩ := idx_onto ⟨(i 0).val / 5000, by omega⟩
  have q0 : win2_3.index t (0 : Fin 2) = (i 0).val / 5000 := congrFun ht 0
  have q1 : win2_3.index t (1 : Fin 2) = 0 := congrFun ht 1
  refine ⟨t, flush2_3 t, ?_⟩
  rw [mem_blk]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 64 ≤ (i 1).val ∧ (i 1).val < win2_3.index t (1 : Fin 2) * 64 + 64; omega

/-- The output array after the region is `scaleShift` of the arrays the region finds. -/
theorem array_eq (c : Dev nD) :
    (dat2 V c).arrAt 3 cfg2.N = scaleShift (V c main_v39) (V c main_v40) (V c main_v41) :=
  (dat2 V c).arrAt_eq_of_cover 3 _ (fun t _ => flushed_eq V c t) cover

end Cert.KernelIdeal.Region2

end
-- ==== Proof.Stretches.lean ====
/-
  The three stretches of host operations of the kernel's @main, read as functions of the buffers they start from.

  Before the first region the host builds, from the two edge-index arguments, the edge lists with the self loops
  appended, the two degree vectors (a scatter-add of ones) and their reciprocal square roots `ns`, `nd`, and reshapes
  `ns` to a column.  Between regions it gathers the rows of the previous region's output at the source indices (negative
  indices wrapped), converts them to the wider float format (the identity at the ideal values) and adds them into a zero
  array at the destination indices; it also reshapes the scale vectors to columns and the bias vector to a row.  Every
  one of these results is the same composition of the same operations as the reference's corresponding stage, so the
  stretches are stated directly against the reference's stages where a stage depends on the program's arguments only,
  and against `aggregate`, the gather-and-scatter-add stage as a function of the array it gathers from.
-/
import proofs.«112946_j24773371363585_2_alg».proof.Proof.Gen.KernelIdeal.Launch
import proofs.«112946_j24773371363585_2_alg».proof.Proof.Gen.ReferenceIdeal.Read
import Idealize.ShloMosaic.Lib.StableHlo.Run

set_option maxRecDepth 16384

noncomputable section

namespace Cert.KernelIdeal.Stretches

open Cert.KernelIdeal Cert.KernelIdeal.Gen
open Idealize.ShloMosaic Idealize.ShloMosaic.TcCoe Idealize.SL.Sem Idealize.ShloMosaic.StableHlo

/-- Rows of `h` gathered at the source indices (a negative index counted from the end), read in the wider float
    format, and added into a zero array at the destination indices. -/
def aggregate (h : FVec Ideal S100000x64 .bf16) (src dst : IVec S1700000 32) : FVec Ideal S100000x64 .f32 :=
  Host.scatterAdd (F := Ideal) scatter_S100000x64_S1700000x1_S1700000x64_1_0_0_1
    (broadcastInDim S100000x64 ![] bcast_S_S100000x64 (constant (F := Ideal) S_ .f32 0x00000000#32))
    (broadcastInDim S1700000x1 ![0] bcast_S1700000_S1700000x1_0 dst)
    (extf (F := Ideal) .f32 (Host.gather gather_S100000x64_S1700000x1_S1700000x64_1_0_n_n_0_1_164 h
      (broadcastInDim S1700000x1 ![0] bcast_S1700000_S1700000x1_0
        (select (cmpi .slt src (broadcastInDim S1700000 ![] bcast_S_S1700000 (constantI S_ 32 0#32)))
          (addi src (broadcastInDim S1700000 ![] bcast_S_S1700000 (constantI S_ 32 100000#32))) src))) bitsLt_bf16_f32)

variable (Φ : Valuation τ sig (Elt Ideal))

/-! ## The stretch before the first region -/

theorem s0_v12 : StableHlo.after (hostOps0 (F := Ideal)) Φ (Proc.devRef .tc main_v12)
    = shapeCast S100000x1 (Cert.ReferenceIdeal.Read.val_main_v10 (F := Ideal) (Φ (Proc.devRef .tc main_arg1))) shapeCasts_S100000_S100000x1 := by
  after_results; rfl
theorem s0_v1 : StableHlo.after (hostOps0 (F := Ideal)) Φ (Proc.devRef .tc main_v1)
    = Cert.ReferenceIdeal.Read.val_main_v1 (F := Ideal) (Φ (Proc.devRef .tc main_arg1)) := by
  after_results; rfl
theorem s0_v2 : StableHlo.after (hostOps0 (F := Ideal)) Φ (Proc.devRef .tc main_v2)
    = Cert.ReferenceIdeal.Read.val_main_v2 (F := Ideal) (Φ (Proc.devRef .tc main_arg2)) := by
  after_results; rfl
theorem s0_v10 : StableHlo.after (hostOps0 (F := Ideal)) Φ (Proc.devRef .tc main_v10)
    = Cert.ReferenceIdeal.Read.val_main_v10 (F := Ideal) (Φ (Proc.devRef .tc main_arg1)) := by
  after_results; rfl
theorem s0_v11 : StableHlo.after (hostOps0 (F := Ideal)) Φ (Proc.devRef .tc main_v11)
    = Cert.ReferenceIdeal.Read.val_main_v11 (F := Ideal) (Φ (Proc.devRef .tc main_arg2)) := by
  after_results; rfl
theorem s0_arg0 : StableHlo.after (hostOps0 (F := Ideal)) Φ (Proc.devRef .tc main_arg0) = Φ (Proc.devRef .tc main_arg0) := by
  after_results
theorem s0_arg3 : StableHlo.after (hostOps0 (F := Ideal)) Φ (Proc.devRef .tc main_arg3) = Φ (Proc.devRef .tc main_arg3) := by
  after_results
theorem s0_arg4 : StableHlo.after (hostOps0 (F := Ideal)) Φ (Proc.devRef .tc main_arg4) = Φ (Proc.devRef .tc main_arg4) := by
  after_results
theorem s0_arg5 : StableHlo.after (hostOps0 (F := Ideal)) Φ (Proc.devRef .tc main_arg5) = Φ (Proc.devRef .tc main_arg5) := by
  after_results
theorem s0_arg6 : StableHlo.after (hostOps0 (F := Ideal)) Φ (Proc.devRef .tc main_arg6) = Φ (Proc.devRef .tc main_arg6) := by
  after_results

/-! ## The stretch between the first and the middle region -/

theorem s1_v24 : StableHlo.after (hostOps1 (F := Ideal)) Φ (Proc.devRef .tc main_v24)
    = aggregate (Φ (Proc.devRef .tc main_v13)) (Φ (Proc.devRef .tc main_v1)) (Φ (Proc.devRef .tc main_v2)) := by
  after_results; rfl
theorem s1_v25 : StableHlo.after (hostOps1 (F := Ideal)) Φ (Proc.devRef .tc main_v25)
    = shapeCast S100000x1 (Φ (Proc.devRef .tc main_v11)) shapeCasts_S100000_S100000x1 := by
  after_results; rfl
theorem s1_v26 : StableHlo.after (hostOps1 (F := Ideal)) Φ (Proc.devRef .tc main_v26)
    = shapeCast S100000x1 (Φ (Proc.devRef .tc main_v10)) shapeCasts_S100000_S100000x1 := by
  after_results; rfl
theorem s1_v27 : StableHlo.after (hostOps1 (F := Ideal)) Φ (Proc.devRef .tc main_v27)
    = shapeCast S1x64 (Φ (Proc.devRef .tc main_arg4)) shapeCasts_S64_S1x64 := by
  after_results; rfl
theorem s1_arg5 : StableHlo.after (hostOps1 (F := Ideal)) Φ (Proc.devRef .tc main_arg5) = Φ (Proc.devRef .tc main_arg5) := by
  after_results
theorem s1_arg6 : StableHlo.after (hostOps1 (F := Ideal)) Φ (Proc.devRef .tc main_arg6) = Φ (Proc.devRef .tc main_arg6) := by
  after_results
theorem s1_v1 : StableHlo.after (hostOps1 (F := Ideal)) Φ (Proc.devRef .tc main_v1) = Φ (Proc.devRef .tc main_v1) := by
  after_results
theorem s1_v2 : StableHlo.after (hostOps1 (F := Ideal)) Φ (Proc.devRef .tc main_v2) = Φ (Proc.devRef .tc main_v2) := by
  after_results
theorem s1_v11 : StableHlo.after (hostOps1 (F := Ideal)) Φ (Proc.devRef .tc main_v11) = Φ (Proc.devRef .tc main_v11) := by
  after_results

/-! ## The stretch between the middle and the last region -/

theorem s2_v39 : StableHlo.after (hostOps2 (F := Ideal)) Φ (Proc.devRef .tc main_v39)
    = aggregate (Φ (Proc.devRef .tc main_v28)) (Φ (Proc.devRef .tc main_v1)) (Φ (Proc.devRef .tc main_v2)) := by
  after_results; rfl
theorem s2_v40 : StableHlo.after (hostOps2 (F := Ideal)) Φ (Proc.devRef .tc main_v40)
    = shapeCast S100000x1 (Φ (Proc.devRef .tc main_v11)) shapeCasts_S100000_S100000x1 := by
  after_results; rfl
theorem s2_v41 : StableHlo.after (hostOps2 (F := Ideal)) Φ (Proc.devRef .tc main_v41)
    = shapeCast S1x64 (Φ (Proc.devRef .tc main_arg6)) shapeCasts_S64_S1x64 := by
  after_results; rfl

/-! ## The gather-and-scatter-add stage against the reference's -/

/-- The reference gathers and adds in one float format; at the ideal values the conversion between the two formats
    is the identity, so the kernel's stage applied to the reference's scaled product is the reference's aggregate. -/
theorem aggregate_first (x0 : (⟨S100000x128, .f32⟩ : BufTy).Contents (Elt Ideal)) (x1 x2 : (⟨S1600000, .i32⟩ : BufTy).Contents (Elt Ideal))
    (x3 : (⟨S128x64, .f32⟩ : BufTy).Contents (Elt Ideal)) :
    aggregate (Cert.ReferenceIdeal.Read.val_main_v15 (F := Ideal) x0 x1 x3) (Cert.ReferenceIdeal.Read.val_main_v1 (F := Ideal) x1)
        (Cert.ReferenceIdeal.Read.val_main_v2 (F := Ideal) x2)
      = Cert.ReferenceIdeal.Read.val_main_v25 (F := Ideal) x0 x1 x2 x3 := rfl

theorem aggregate_second (x0 : (⟨S100000x128, .f32⟩ : BufTy).Contents (Elt Ideal)) (x1 x2 : (⟨S1600000, .i32⟩ : BufTy).Contents (Elt Ideal))
    (x3 : (⟨S128x64, .f32⟩ : BufTy).Contents (Elt Ideal)) (x4 : (⟨S64, .f32⟩ : BufTy).Contents (Elt Ideal))
    (x5 : (⟨S64x64, .f32⟩ : BufTy).Contents (Elt Ideal)) :
    aggregate (Cert.ReferenceIdeal.Read.val_main_v36 (F := Ideal) x0 x1 x2 x3 x4 x5) (Cert.ReferenceIdeal.Read.val_main_v1 (F := Ideal) x1)
        (Cert.ReferenceIdeal.Read.val_main_v2 (F := Ideal) x2)
      = Cert.ReferenceIdeal.Read.val_main_v46 (F := Ideal) x0 x1 x2 x3 x4 x5 := rfl

end Cert.KernelIdeal.Stretches

end
-- ==== Proof.RefStages.lean ====
/-
  The three regions' functions are three stages of the reference.

  The reference computes, on whole arrays: the product `x w1` with row `r` scaled by `ns r` (its stage 15); after a
  gather and a scatter-add, the aggregate scaled by `nd r`, shifted by the bias, rectified, multiplied by `w2` and
  scaled by `ns r` again (its stage 36); and after a second gather and scatter-add, the aggregate scaled by `nd r` and
  shifted by the second bias (its result, stage 52).  Each region of the kernel computes one of these from the arrays it
  finds, the scale factors arriving as one-column arrays (a reshape of the vector) and the biases as one-row arrays.
  Index by index both sides are the same expression on the extended reals: a broadcast along the columns reads the
  row's entry, a broadcast along the rows reads the column's entry, a matrix product is the sum over the contracted
  coordinate, and the operations are applied in the same order, so no law beyond unfolding is used.
-/
import proofs.«112946_j24773371363585_2_alg».proof.Proof.Gen.ReferenceIdeal.Read
import proofs.«112946_j24773371363585_2_alg».proof.Proof.Region0
import proofs.«112946_j24773371363585_2_alg».proof.Proof.Region1
import proofs.«112946_j24773371363585_2_alg».proof.Proof.Region2
import proofs.«112946_j24773371363585_2_alg».proof.Proof.LibColumnLayout
import Idealize.ShloMosaic.Lib.ValueLayout

set_option maxRecDepth 16384

noncomputable section

open scoped BigOperators

namespace Cert.RefStages

open Idealize.ShloMosaic Idealize.ShloMosaic.ValueIdx
open Cert.KernelIdeal (S100000 S100000x1 S100000x64 S100000x128 S128x64 S64x64 S64 S1x64 S1600000)

/-- The first region's function of `x`, `w1` and the column of `ns` is the reference's scaled product. -/
theorem scaledProduct_eq (x0 : S100000x128.Idx → EReal) (x1 : S1600000.Idx → BitVec 32) (x3 : S128x64.Idx → EReal)
    (h : S100000.ShapeCasts S100000x1) :
    Cert.KernelIdeal.Region0.scaledProduct x0 x3 (shapeCast S100000x1 (Cert.ReferenceIdeal.Read.val_main_v10 (F := Ideal) x1) h)
      = Cert.ReferenceIdeal.Read.val_main_v15 (F := Ideal) x0 x1 x3 := by
  funext i
  obtain ⟨p, q, rfl⟩ : ∃ (p : Fin 100000) (q : Fin 64), i = ix2 p q := ⟨i 0, i 1, eq_ix2 i⟩
  rw [Cert.ReferenceIdeal.Read.val_main_v15_apply, Cert.ReferenceIdeal.Read.val_main_v12_apply,
    Cert.ReferenceIdeal.Read.val_main_v14_apply, Cert.ReferenceIdeal.Read.val_main_v13_apply]
  have hn : Cert.ReferenceIdeal.Read.idx_main_v13 (Cert.ReferenceIdeal.Read.idx_main_v14 (ix2 p q)) = ix1 p :=
    funext fun a => Fin.ext (by match a with | ⟨0, _⟩ => rfl)
  have hl : ∀ k : Fin 128, Cert.ReferenceIdeal.Read.lidx_main_v12 (ix2 p q) k = ix2 p k :=
    fun k => funext fun a => Fin.ext (by match a with | ⟨0, _⟩ => rfl | ⟨1, _⟩ => rfl)
  have hr : ∀ k : Fin 128, Cert.ReferenceIdeal.Read.ridx_main_v12 (ix2 p q) k = ix2 k q :=
    fun k => funext fun a => Fin.ext (by match a with | ⟨0, _⟩ => rfl | ⟨1, _⟩ => rfl)
  rw [hn]
  simp only [hl, hr]
  unfold Cert.KernelIdeal.Region0.scaledProduct
  rw [ColumnLayout.shapeCast_a_a1_apply]
  rfl

/-- The last region's function of an aggregate `g`, the column of `nd` and the row of the second bias is the
    reference's last two operations applied to `g`. -/
theorem scaleShift_eq (g : FVec Ideal Cert.ReferenceIdeal.S100000x64 .f32) (x2 : S1600000.Idx → BitVec 32) (x6 : FVec Ideal Cert.ReferenceIdeal.S64 .f32)
    (h : S100000.ShapeCasts S100000x1) (h' : S64.ShapeCasts S1x64) :
    Cert.KernelIdeal.Region2.scaleShift g (shapeCast S100000x1 (Cert.ReferenceIdeal.Read.val_main_v11 (F := Ideal) x2) h) (shapeCast S1x64 x6 h')
      = addf (mulf g (Cert.ReferenceIdeal.Read.val_main_v48 (F := Ideal) x2)) (Cert.ReferenceIdeal.Read.val_main_v51 (F := Ideal) x6) := by
  funext i
  obtain ⟨p, q, rfl⟩ : ∃ (p : Fin 100000) (q : Fin 64), i = ix2 p q := ⟨i 0, i 1, eq_ix2 i⟩
  rw [addf_apply, mulf_apply, Cert.ReferenceIdeal.Read.val_main_v48_apply, Cert.ReferenceIdeal.Read.val_main_v47_apply,
    Cert.ReferenceIdeal.Read.val_main_v51_apply, Cert.ReferenceIdeal.Read.val_main_v50_apply]
  have hn : Cert.ReferenceIdeal.Read.idx_main_v47 (Cert.ReferenceIdeal.Read.idx_main_v48 (ix2 p q)) = ix1 p :=
    funext fun a => Fin.ext (by match a with | ⟨0, _⟩ => rfl)
  have hb : Cert.ReferenceIdeal.Read.idx_main_v50 (Cert.ReferenceIdeal.Read.idx_main_v51 (ix2 p q)) = ix1 q :=
    funext fun a => Fin.ext (by match a with | ⟨0, _⟩ => rfl)
  rw [hn, hb]
  unfold Cert.KernelIdeal.Region2.scaleShift
  rw [ColumnLayout.shapeCast_a_a1_apply, shapeCast_a_1a_apply]

/-- The middle region's function of an aggregate `g`, the columns of `nd` and `ns`, the row of the first bias and
    `w2` is the reference's operations from the scaling by `nd` to the scaling by `ns`, applied to `g`. -/
theorem rectifiedProduct_eq (g : FVec Ideal Cert.ReferenceIdeal.S100000x64 .f32) (x1 x2 : S1600000.Idx → BitVec 32) (x4 : FVec Ideal Cert.ReferenceIdeal.S64 .f32)
    (x5 : FVec Ideal Cert.ReferenceIdeal.S64x64 .f32) (h : S100000.ShapeCasts S100000x1) (h' : S64.ShapeCasts S1x64) :
    Cert.KernelIdeal.Region1.rectifiedProduct g (shapeCast S100000x1 (Cert.ReferenceIdeal.Read.val_main_v11 (F := Ideal) x2) h)
        (shapeCast S1x64 x4 h') (shapeCast S100000x1 (Cert.ReferenceIdeal.Read.val_main_v10 (F := Ideal) x1) h) x5
      = mulf (Host.dotGeneral Cert.ReferenceIdeal.dot_S100000x64_S64x64_S100000x64_1_0_0_1_n_n none
          (maximumf (addf (mulf g (Cert.ReferenceIdeal.Read.val_main_v27 (F := Ideal) x2)) (Cert.ReferenceIdeal.Read.val_main_v30 (F := Ideal) x4))
            (Cert.ReferenceIdeal.Read.val_main_call0_v0 (F := Ideal))) x5)
          (Cert.ReferenceIdeal.Read.val_main_v35 (F := Ideal) x1) := by
  funext i
  obtain ⟨p, q, rfl⟩ : ∃ (p : Fin 100000) (q : Fin 64), i = ix2 p q := ⟨i 0, i 1, eq_ix2 i⟩
  rw [mulf_apply, Cert.ReferenceIdeal.Read.val_main_v35_apply, Cert.ReferenceIdeal.Read.val_main_v34_apply]
  have hn : Cert.ReferenceIdeal.Read.idx_main_v34 (Cert.ReferenceIdeal.Read.idx_main_v35 (ix2 p q)) = ix1 p :=
    funext fun a => Fin.ext (by match a with | ⟨0, _⟩ => rfl)
  rw [hn]
  have hd : Cert.ReferenceIdeal.dot_S100000x64_S64x64_S100000x64_1_0_0_1_n_n = DotDims.plain 100000 64 64 := rfl
  simp only [Host.dotGeneral]
  rw [hd, Cert.Lib.PlainDot.dotGeneral_apply 100000 64 64]
  unfold Cert.KernelIdeal.Region1.rectifiedProduct
  rw [ColumnLayout.shapeCast_a_a1_apply, ColumnLayout.shapeCast_a_a1_apply]
  refine congrArg₂ (fun u v : EReal => u * v) (Finset.sum_congr rfl fun k _ => ?_) rfl
  rw [maximumf_apply, addf_apply, mulf_apply, Cert.ReferenceIdeal.Read.val_main_v27_apply, Cert.ReferenceIdeal.Read.val_main_v26_apply,
    Cert.ReferenceIdeal.Read.val_main_v30_apply, Cert.ReferenceIdeal.Read.val_main_v29_apply,
    Cert.ReferenceIdeal.Read.val_main_call0_v0_apply, Cert.ReferenceIdeal.Read.val_main_call0_cst_apply]
  have hn' : Cert.ReferenceIdeal.Read.idx_main_v26 (Cert.ReferenceIdeal.Read.idx_main_v27 (ix2 p k)) = ix1 p :=
    funext fun a => Fin.ext (by match a with | ⟨0, _⟩ => rfl)
  have hb : Cert.ReferenceIdeal.Read.idx_main_v29 (Cert.ReferenceIdeal.Read.idx_main_v30 (ix2 p k)) = ix1 k :=
    funext fun a => Fin.ext (by match a with | ⟨0, _⟩ => rfl)
  rw [hn', hb, shapeCast_a_1a_apply]
  rfl

end Cert.RefStages

end
-- ==== Proof.Result.lean ====
/-
  The kernel's result array is the reference's result stage of the launch arguments.

  The buffers' contents are followed through the six boundaries of the kernel's run.  Each host stretch is read by its
  operations, each region by its whole-array function, and a buffer a segment does not write is carried over.  At every
  boundary the buffers the next segment reads turn out to be stages of the reference: the scale vectors `ns`, `nd`
  (as columns), the edge lists, the scaled product after the first region, its aggregate, the rectified and scaled
  second product after the middle region, its aggregate, and at the end the reference's result.
-/
import proofs.«112946_j24773371363585_2_alg».proof.Proof.KernelRun
import proofs.«112946_j24773371363585_2_alg».proof.Proof.Region0
import proofs.«112946_j24773371363585_2_alg».proof.Proof.Region1
import proofs.«112946_j24773371363585_2_alg».proof.Proof.Region2
import proofs.«112946_j24773371363585_2_alg».proof.Proof.Stretches
import proofs.«112946_j24773371363585_2_alg».proof.Proof.RefStages

set_option maxRecDepth 16384

noncomputable section

namespace Cert.KernelIdeal.Result

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg) (c : Dev nD)

/-! ## Entry of the first region -/

theorem b1_arg0 : W1 m ρ c (Proc.devRef .tc main_arg0) = (m ((c : Thread nD τ).loc main_arg0)) := Stretches.s0_arg0 (W0 m ρ c)
theorem b1_arg3 : W1 m ρ c (Proc.devRef .tc main_arg3) = (m ((c : Thread nD τ).loc main_arg3)) := Stretches.s0_arg3 (W0 m ρ c)
theorem b1_arg4 : W1 m ρ c (Proc.devRef .tc main_arg4) = (m ((c : Thread nD τ).loc main_arg4)) := Stretches.s0_arg4 (W0 m ρ c)
theorem b1_arg5 : W1 m ρ c (Proc.devRef .tc main_arg5) = (m ((c : Thread nD τ).loc main_arg5)) := Stretches.s0_arg5 (W0 m ρ c)
theorem b1_arg6 : W1 m ρ c (Proc.devRef .tc main_arg6) = (m ((c : Thread nD τ).loc main_arg6)) := Stretches.s0_arg6 (W0 m ρ c)
theorem b1_v1 : W1 m ρ c (Proc.devRef .tc main_v1) = Cert.ReferenceIdeal.Read.val_main_v1 (F := Ideal) (m ((c : Thread nD τ).loc main_arg1)) := Stretches.s0_v1 (W0 m ρ c)
theorem b1_v2 : W1 m ρ c (Proc.devRef .tc main_v2) = Cert.ReferenceIdeal.Read.val_main_v2 (F := Ideal) (m ((c : Thread nD τ).loc main_arg2)) := Stretches.s0_v2 (W0 m ρ c)
theorem b1_v10 : W1 m ρ c (Proc.devRef .tc main_v10) = Cert.ReferenceIdeal.Read.val_main_v10 (F := Ideal) (m ((c : Thread nD τ).loc main_arg1)) := Stretches.s0_v10 (W0 m ρ c)
theorem b1_v11 : W1 m ρ c (Proc.devRef .tc main_v11) = Cert.ReferenceIdeal.Read.val_main_v11 (F := Ideal) (m ((c : Thread nD τ).loc main_arg2)) := Stretches.s0_v11 (W0 m ρ c)
theorem b1_v12 : W1 m ρ c (Proc.devRef .tc main_v12)
    = shapeCast S100000x1 (Cert.ReferenceIdeal.Read.val_main_v10 (F := Ideal) (m ((c : Thread nD τ).loc main_arg1))) shapeCasts_S100000_S100000x1 := Stretches.s0_v12 (W0 m ρ c)

/-! ## Exit of the first region: the scaled product -/

theorem b2_v13 : W2 m ρ c (Proc.devRef .tc main_v13) = Cert.ReferenceIdeal.Read.val_main_v15 (F := Ideal) (m ((c : Thread nD τ).loc main_arg0)) (m ((c : Thread nD τ).loc main_arg1)) (m ((c : Thread nD τ).loc main_arg3)) := by
  refine (W2_arr m ρ c 3).trans ((Region0.array_eq (V1 m ρ) c).trans ?_)
  rw [show V1 m ρ c main_arg0 = _ from b1_arg0 m ρ c, show V1 m ρ c main_arg3 = _ from b1_arg3 m ρ c,
    show V1 m ρ c main_v12 = _ from b1_v12 m ρ c]
  exact Cert.RefStages.scaledProduct_eq _ _ _ _

theorem b2_v1 : W2 m ρ c (Proc.devRef .tc main_v1) = Cert.ReferenceIdeal.Read.val_main_v1 (F := Ideal) (m ((c : Thread nD τ).loc main_arg1)) :=
  (W2_of_ne m ρ c main_v1 (by decide)).trans (b1_v1 m ρ c)
theorem b2_v2 : W2 m ρ c (Proc.devRef .tc main_v2) = Cert.ReferenceIdeal.Read.val_main_v2 (F := Ideal) (m ((c : Thread nD τ).loc main_arg2)) :=
  (W2_of_ne m ρ c main_v2 (by decide)).trans (b1_v2 m ρ c)
theorem b2_v10 : W2 m ρ c (Proc.devRef .tc main_v10) = Cert.ReferenceIdeal.Read.val_main_v10 (F := Ideal) (m ((c : Thread nD τ).loc main_arg1)) :=
  (W2_of_ne m ρ c main_v10 (by decide)).trans (b1_v10 m ρ c)
theorem b2_v11 : W2 m ρ c (Proc.devRef .tc main_v11) = Cert.ReferenceIdeal.Read.val_main_v11 (F := Ideal) (m ((c : Thread nD τ).loc main_arg2)) :=
  (W2_of_ne m ρ c main_v11 (by decide)).trans (b1_v11 m ρ c)
theorem b2_arg4 : W2 m ρ c (Proc.devRef .tc main_arg4) = (m ((c : Thread nD τ).loc main_arg4)) := (W2_of_ne m ρ c main_arg4 (by decide)).trans (b1_arg4 m ρ c)
theorem b2_arg5 : W2 m ρ c (Proc.devRef .tc main_arg5) = (m ((c : Thread nD τ).loc main_arg5)) := (W2_of_ne m ρ c main_arg5 (by decide)).trans (b1_arg5 m ρ c)
theorem b2_arg6 : W2 m ρ c (Proc.devRef .tc main_arg6) = (m ((c : Thread nD τ).loc main_arg6)) := (W2_of_ne m ρ c main_arg6 (by decide)).trans (b1_arg6 m ρ c)

/-! ## Entry of the middle region -/

theorem b3_v24 : W3 m ρ c (Proc.devRef .tc main_v24) = Cert.ReferenceIdeal.Read.val_main_v25 (F := Ideal) (m ((c : Thread nD τ).loc main_arg0)) (m ((c : Thread nD τ).loc main_arg1)) (m ((c : Thread nD τ).loc main_arg2)) (m ((c : Thread nD τ).loc main_arg3)) := by
  refine (Stretches.s1_v24 (W2 m ρ c)).trans ?_
  rw [b2_v13 m ρ c, b2_v1 m ρ c, b2_v2 m ρ c]
  exact Stretches.aggregate_first _ _ _ _
theorem b3_v25 : W3 m ρ c (Proc.devRef .tc main_v25)
    = shapeCast S100000x1 (Cert.ReferenceIdeal.Read.val_main_v11 (F := Ideal) (m ((c : Thread nD τ).loc main_arg2))) shapeCasts_S100000_S100000x1 := by
  refine (Stretches.s1_v25 (W2 m ρ c)).trans ?_
  rw [b2_v11 m ρ c]
theorem b3_v26 : W3 m ρ c (Proc.devRef .tc main_v26)
    = shapeCast S100000x1 (Cert.ReferenceIdeal.Read.val_main_v10 (F := Ideal) (m ((c : Thread nD τ).loc main_arg1))) shapeCasts_S100000_S100000x1 := by
  refine (Stretches.s1_v26 (W2 m ρ c)).trans ?_
  rw [b2_v10 m ρ c]
theorem b3_v27 : W3 m ρ c (Proc.devRef .tc main_v27) = shapeCast S1x64 (m ((c : Thread nD τ).loc main_arg4)) shapeCasts_S64_S1x64 := by
  refine (Stretches.s1_v27 (W2 m ρ c)).trans ?_
  rw [b2_arg4 m ρ c]
theorem b3_arg5 : W3 m ρ c (Proc.devRef .tc main_arg5) = (m ((c : Thread nD τ).loc main_arg5)) := (Stretches.s1_arg5 (W2 m ρ c)).trans (b2_arg5 m ρ c)
theorem b3_arg6 : W3 m ρ c (Proc.devRef .tc main_arg6) = (m ((c : Thread nD τ).loc main_arg6)) := (Stretches.s1_arg6 (W2 m ρ c)).trans (b2_arg6 m ρ c)
theorem b3_v1 : W3 m ρ c (Proc.devRef .tc main_v1) = Cert.ReferenceIdeal.Read.val_main_v1 (F := Ideal) (m ((c : Thread nD τ).loc main_arg1)) := (Stretches.s1_v1 (W2 m ρ c)).trans (b2_v1 m ρ c)
theorem b3_v2 : W3 m ρ c (Proc.devRef .tc main_v2) = Cert.ReferenceIdeal.Read.val_main_v2 (F := Ideal) (m ((c : Thread nD τ).loc main_arg2)) := (Stretches.s1_v2 (W2 m ρ c)).trans (b2_v2 m ρ c)
theorem b3_v11 : W3 m ρ c (Proc.devRef .tc main_v11) = Cert.ReferenceIdeal.Read.val_main_v11 (F := Ideal) (m ((c : Thread nD τ).loc main_arg2)) := (Stretches.s1_v11 (W2 m ρ c)).trans (b2_v11 m ρ c)

/-! ## Exit of the middle region: the rectified, scaled second product -/

theorem b4_v28 : W4 m ρ c (Proc.devRef .tc main_v28)
    = Cert.ReferenceIdeal.Read.val_main_v36 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W4_arr m ρ c 5).trans ((Region1.array_eq (V3 m ρ) c).trans ?_)
  rw [show V3 m ρ c main_v24 = _ from b3_v24 m ρ c, show V3 m ρ c main_v25 = _ from b3_v25 m ρ c,
    show V3 m ρ c main_v27 = _ from b3_v27 m ρ c, show V3 m ρ c main_v26 = _ from b3_v26 m ρ c,
    show V3 m ρ c main_arg5 = _ from b3_arg5 m ρ c]
  exact Cert.RefStages.rectifiedProduct_eq _ _ _ _ _ _ _

theorem b4_v1 : W4 m ρ c (Proc.devRef .tc main_v1) = Cert.ReferenceIdeal.Read.val_main_v1 (F := Ideal) (m ((c : Thread nD τ).loc main_arg1)) :=
  (W4_of_ne m ρ c main_v1 (by decide)).trans (b3_v1 m ρ c)
theorem b4_v2 : W4 m ρ c (Proc.devRef .tc main_v2) = Cert.ReferenceIdeal.Read.val_main_v2 (F := Ideal) (m ((c : Thread nD τ).loc main_arg2)) :=
  (W4_of_ne m ρ c main_v2 (by decide)).trans (b3_v2 m ρ c)
theorem b4_v11 : W4 m ρ c (Proc.devRef .tc main_v11) = Cert.ReferenceIdeal.Read.val_main_v11 (F := Ideal) (m ((c : Thread nD τ).loc main_arg2)) :=
  (W4_of_ne m ρ c main_v11 (by decide)).trans (b3_v11 m ρ c)
theorem b4_arg6 : W4 m ρ c (Proc.devRef .tc main_arg6) = (m ((c : Thread nD τ).loc main_arg6)) := (W4_of_ne m ρ c main_arg6 (by decide)).trans (b3_arg6 m ρ c)

/-! ## Entry of the last region -/

theorem b5_v39 : W5 m ρ c (Proc.devRef .tc main_v39)
    = Cert.ReferenceIdeal.Read.val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (Stretches.s2_v39 (W4 m ρ c)).trans ?_
  rw [b4_v28 m ρ c, b4_v1 m ρ c, b4_v2 m ρ c]
  exact Stretches.aggregate_second _ _ _ _ _ _
theorem b5_v40 : W5 m ρ c (Proc.devRef .tc main_v40)
    = shapeCast S100000x1 (Cert.ReferenceIdeal.Read.val_main_v11 (F := Ideal) (m ((c : Thread nD τ).loc main_arg2))) shapeCasts_S100000_S100000x1 := by
  refine (Stretches.s2_v40 (W4 m ρ c)).trans ?_
  rw [b4_v11 m ρ c]
theorem b5_v41 : W5 m ρ c (Proc.devRef .tc main_v41) = shapeCast S1x64 (m ((c : Thread nD τ).loc main_arg6)) shapeCasts_S64_S1x64 := by
  refine (Stretches.s2_v41 (W4 m ρ c)).trans ?_
  rw [b4_arg6 m ρ c]

/-! ## The result -/

/-- What the last region's write-backs leave in the result array is the reference's result stage of the launch
    arguments. -/
theorem result_eq : (dat2 (V5 m ρ) c).arrAt 3 cfg2.N
    = Cert.ReferenceIdeal.Read.val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (Region2.array_eq (V5 m ρ) c).trans ?_
  rw [show V5 m ρ c main_v39 = _ from b5_v39 m ρ c, show V5 m ρ c main_v40 = _ from b5_v40 m ρ c,
    show V5 m ρ c main_v41 = _ from b5_v41 m ρ c]
  exact Cert.RefStages.scaleShift_eq _ _ _ _ _

end Cert.KernelIdeal.Result

end
-- ==== Proof.lean ====
/-
  Two layers of graph convolution: a Pallas kernel pipeline against its jnp reference, equal over the extended reals.

  Both programs take node features `x` (100000 × 128), two edge-index vectors, and two weight matrices with their
  biases.  Both append the self loops to the edge lists, count out- and in-degrees by a scatter-add of ones, and take
  `ns = rsqrt (out-degree)`, `nd = rsqrt (in-degree)`.  One layer maps features `h` to
  `A ((h W) · ns) · nd + b`, where `· ns` scales row `r` by `ns r` and `A` gathers rows at the source indices and adds
  them at the destination indices; the result is the second layer applied to the rectified first layer.

  The reference is one straight line of host operations.  The kernel computes the same thing in three pipelined regions
  with the gathers and scatter-adds on the host between them: the first region forms `(x W1) · ns` block by block, the
  middle one fuses `max (a · nd + b1) 0` with the second product and its scaling by `ns`, the last one forms
  `a · nd + b2`.  The kernel rounds to a narrower float format on the way; at the ideal values a change of format is the
  identity, a product accumulated from zero is the plain sum over the contracted coordinate, and reshaping a vector to a
  column or a row reads the same entries as broadcasting it.  So, index by index, both programs apply the same
  operations in the same order to the same arguments, and no algebraic law (hence no finiteness of the inputs) is
  needed: the precondition is never opened.

  The frames of the two kernel programs are the generated frame certificates; the reference's frame is its generated run
  with the result dropped.  The idealization rewrote no operation, so `preserves` is `True`.
-/
import proofs.«112946_j24773371363585_2_alg».proof.Defs
import proofs.«112946_j24773371363585_2_alg».proof.Proof.Gen.Kernel
import proofs.«112946_j24773371363585_2_alg».proof.Proof.Gen.Kernel.Skeleton
import proofs.«112946_j24773371363585_2_alg».proof.Proof.Gen.Kernel.Launch
import proofs.«112946_j24773371363585_2_alg».proof.Proof.Gen.Kernel.Points
import proofs.«112946_j24773371363585_2_alg».proof.Proof.Gen.Kernel.Frame
import proofs.«112946_j24773371363585_2_alg».proof.Proof.Gen.KernelIdeal
import proofs.«112946_j24773371363585_2_alg».proof.Proof.Gen.KernelIdeal.Skeleton
import proofs.«112946_j24773371363585_2_alg».proof.Proof.Gen.KernelIdeal.Launch
import proofs.«112946_j24773371363585_2_alg».proof.Proof.Gen.KernelIdeal.Points
import proofs.«112946_j24773371363585_2_alg».proof.Proof.Gen.KernelIdeal.Frame
import proofs.«112946_j24773371363585_2_alg».proof.Proof.Gen.ReferenceIdeal
import proofs.«112946_j24773371363585_2_alg».proof.Proof.Gen.Pre_finite_inputs
import proofs.«112946_j24773371363585_2_alg».proof.Proof.Gen.ReferenceIdeal.Run
import proofs.«112946_j24773371363585_2_alg».proof.Proof.Gen.ReferenceIdeal.Read
import proofs.«112946_j24773371363585_2_alg».proof.Proof.KernelRun
import proofs.«112946_j24773371363585_2_alg».proof.Proof.Result
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- The idealized kernel runs and leaves its arguments unchanged. -/
theorem frame_kernelIdeal : Cert.frame_KernelIdeal := fun m ρ _ => Cert.KernelIdeal.Gen.frame m ρ

/-- The idealized reference runs and leaves its arguments unchanged: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments, the idealized kernel's result array and the idealized reference's both
    end at the reference's result stage of those arguments. -/
theorem algebraic : Cert.algebraic_KernelIdeal_ReferenceIdeal := by
  intro m ρ m' ρ' _ hagree
  refine ⟨fun c => Cert.ReferenceIdeal.Read.val_main_v52 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Result.result_eq m ρ c), (h c).2⟩)
      (Cert.KernelIdeal.RunValue.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v52_eq, (hagree c).1, (hagree c).2.1, (hagree c).2.2.1, (hagree c).2.2.2.1,
      (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
